-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x5 : Shape := ⟨2, ![4194304, 5]⟩
abbrev S12 : Shape := ⟨1, ![12]⟩
abbrev S_ : Shape := ⟨0, ![]⟩

class Facts : Prop where
  bcast_S_S4194304x5 : S_.BroadcastsInDim S4194304x5 (![] : Fin 0 → Fin S4194304x5.rank)
  reducesTo_S4194304x5_S_d0_1 : S4194304x5.ReducesTo [0, 1] S_
  h_S_ : 0 < S_.numel
  bcast_S_S12 : S_.BroadcastsInDim S12 (![] : Fin 0 → Fin S12.rank)
  reducesTo_S12_S_d0 : S12.ReducesTo [0] S_

variable [Facts]

def fn {F : FTy → Type} [FloatOps F] (main_arg0 : FVec F S4194304x5 .f32) (main_arg1 : FVec F S12 .f32) : IVec S_ 1 :=
  let main_v0 : FVec F S4194304x5 .f32 := Host.absf main_arg0
  let main_cst : FVec F S_ .f32 := constant S_ .f32 0x7F800000#32
  let main_v1 : FVec F S4194304x5 .f32 := broadcastInDim S4194304x5 ![] bcast_S_S4194304x5 main_cst
  let main_v2 : IVec S4194304x5 1 := cmpf .olt main_v0 main_v1
  let main_c : IVec S_ 1 := constantI S_ 1 1#1
  let main_v3 : IVec S_ 1 := (fun x v => Host.reduce IntOp.andi x v reducesTo_S4194304x5_S_d0_1 h_S_) main_v2 main_c
  let main_v4 : FVec F S12 .f32 := Host.absf main_arg1
  let main_cst_0 : FVec F S_ .f32 := constant S_ .f32 0x7F800000#32
  let main_v5 : FVec F S12 .f32 := broadcastInDim S12 ![] bcast_S_S12 main_cst_0
  let main_v6 : IVec S12 1 := cmpf .olt main_v4 main_v5
  let main_c_1 : IVec S_ 1 := constantI S_ 1 1#1
  let main_v7 : IVec S_ 1 := (fun x v => Host.reduce IntOp.andi x v reducesTo_S12_S_d0 h_S_) main_v6 main_c_1
  let main_v8 : IVec S_ 1 := andi main_v3 main_v7
  main_v8
-- ==== Kernel.lean ====
abbrev S4194304x5 : Shape := ⟨2, ![4194304, 5]⟩
abbrev S12 : Shape := ⟨1, ![12]⟩
abbrev S5x12 : Shape := ⟨2, ![5, 12]⟩
abbrev S_ : Shape := ⟨0, ![]⟩
abbrev S12x5 : Shape := ⟨2, ![12, 5]⟩
abbrev S4096x5 : Shape := ⟨2, ![4096, 5]⟩
abbrev S4096x1 : Shape := ⟨2, ![4096, 1]⟩
abbrev S4096 : Shape := ⟨1, ![4096]⟩
abbrev S4096x12 : Shape := ⟨2, ![4096, 12]⟩
abbrev S1x12 : Shape := ⟨2, ![1, 12]⟩

abbrev nBuf : Space → Nat
  | .hbm => 8
  | .vmem => 6
  | .smem => 0
  | _ => 0

abbrev bufTy : (tb : Table) → Fin (tcTables nBuf tb) → BufTy
  | .hbm, ⟨0, _⟩ => ⟨S4194304x5, .f32⟩
  | .hbm, ⟨1, _⟩ => ⟨S12, .f32⟩
  | .hbm, ⟨2, _⟩ => ⟨S5x12, .f32⟩
  | .hbm, ⟨3, _⟩ => ⟨S_, .f32⟩
  | .hbm, ⟨4, _⟩ => ⟨S12, .f32⟩
  | .hbm, ⟨5, _⟩ => ⟨S12, .f32⟩
  | .hbm, ⟨6, _⟩ => ⟨S12x5, .f32⟩
  | .hbm, ⟨7, _⟩ => ⟨S4194304x5, .f32⟩
  | .local _ .vmem, ⟨0, _⟩ => ⟨S4096x5, .f32⟩
  | .local _ .vmem, ⟨1, _⟩ => ⟨S4096x5, .f32⟩
  | .local _ .vmem, ⟨2, _⟩ => ⟨S12, .f32⟩
  | .local _ .vmem, ⟨3, _⟩ => ⟨S12x5, .f32⟩
  | .local _ .vmem, ⟨4, _⟩ => ⟨S4096x5, .f32⟩
  | .local _ .vmem, ⟨5, _⟩ => ⟨S4096x5, .f32⟩
  | _, _ => ⟨S4194304x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S12 : S_.BroadcastsInDim S12 (![] : Fin 0 → Fin S12.rank)
  transposes_S5x12_S12x5_1_0 : S5x12.Transposes [1, 0] S12x5
  inb_S4096x5_S4096x5_0_0 : ∀ a, (![0, 0] : Fin 2 → Nat) a + S4096x5.size a ≤ S4096x5.size a
  h_S4096x5 : 0 < S4096x5.numel
  slices_S4096x5_o0_0_S4096x1 : S4096x5.Slices ![0, 0] S4096x1
  shapeCasts_S4096x1_S4096 : S4096x1.ShapeCasts S4096
  slices_S4096x5_o0_1_S4096x1 : S4096x5.Slices ![0, 1] S4096x1
  slices_S4096x5_o0_2_S4096x1 : S4096x5.Slices ![0, 2] S4096x1
  slices_S4096x5_o0_3_S4096x1 : S4096x5.Slices ![0, 3] S4096x1
  slices_S4096x5_o0_4_S4096x1 : S4096x5.Slices ![0, 4] S4096x1
  shapeCasts_S4096_S4096x1 : S4096.ShapeCasts S4096x1
  concatenates_S4096x1_S4096x1_S4096x1_S4096x1_S4096x1_S4096x1_S4096x1_S4096x1_S4096x1_S4096x1_S4096x1_S4096x1_S4096x12_d1 : Shape.Concatenates [S4096x1, S4096x1, S4096x1, S4096x1, S4096x1, S4096x1, S4096x1, S4096x1, S4096x1, S4096x1, S4096x1, S4096x1] S4096x12 1
  inb_S12_S12_0 : ∀ a, (![0] : Fin 1 → Nat) a + S12.size a ≤ S12.size a
  h_S12 : 0 < S12.numel
  shapeCasts_S12_S12 : S12.ShapeCasts S12
  shapeCasts_S12_S1x12 : S12.ShapeCasts S1x12
  broadcasts_S1x12_S4096x12 : S1x12.Broadcasts S4096x12
  bitsLt_bf16_f32 : FTy.bits .bf16 < FTy.bits .f32
  inb_S12x5_S12x5_0_0 : ∀ a, (![0, 0] : Fin 2 → Nat) a + S12x5.size a ≤ S12x5.size a
  h_S12x5 : 0 < S12x5.numel
  shapeCasts_S12x5_S12x5 : S12x5.ShapeCasts S12x5
  dot_S4096x12_S12x5_S4096x5_1_0_0_1_n_n_wf : DotDims.WF S4096x12 S12x5 S4096x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x5.size a ≤ S4194304x5.size a
  hwx0_0 : ∀ i : grid0.Coords, EltTy.bits .f32 = 32 ∨ (Rect.block (s := S4194304x5) S4096x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12.size a ≤ S12.size a
  hwx0_1 : ∀ i : grid0.Coords, EltTy.bits .f32 = 32 ∨ (Rect.block (s := S12) S12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x5.size a ≤ S12x5.size a
  hwx0_2 : ∀ i : grid0.Coords, EltTy.bits .f32 = 32 ∨ (Rect.block (s := S12x5) S12x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x5.size a ≤ S4194304x5.size a
  hwx0_3 : ∀ i : grid0.Coords, EltTy.bits .f32 = 32 ∨ (Rect.block (s := S4194304x5) S4096x5.size (cc0_transform_3 i) (hinb0_3 i)).WholeWords (EltTy.packing .f32)

variable [Facts₀]

def dot_S4096x12_S12x5_S4096x5_1_0_0_1_n_n : DotDims S4096x12 S12x5 S4096x5 where
  lhsContracting := [1]
  rhsContracting := [0]
  lhsNonContracting := [0]
  rhsNonContracting := [1]
  lhsBatch := []
  rhsBatch := []
  wf := dot_S4096x12_S12x5_S4096x5_1_0_0_1_n_n_wf

abbrev win0_0 : Pipeline.Window sig grid0 :=
  Pipeline.Window.ofSpec (Memref.whole main_arg0) S4096x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S12x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x5.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x5 : Shape := ⟨2, ![4194304, 5]⟩
abbrev S12 : Shape := ⟨1, ![12]⟩
abbrev S5x12 : Shape := ⟨2, ![5, 12]⟩
abbrev S4194304x1 : Shape := ⟨2, ![4194304, 1]⟩
abbrev S4194304 : Shape := ⟨1, ![4194304]⟩
abbrev S4194304x12 : Shape := ⟨2, ![4194304, 12]⟩
abbrev S_ : Shape := ⟨0, ![]⟩
abbrev S1x12 : Shape := ⟨2, ![1, 12]⟩
abbrev S12x5 : Shape := ⟨2, ![12, 5]⟩

abbrev nBuf : Space → Nat
  | .hbm => 43
  | .vmem => 0
  | .smem => 0
  | _ => 0

abbrev bufTy : (tb : Table) → Fin (tcTables nBuf tb) → BufTy
  | .hbm, ⟨0, _⟩ => ⟨S4194304x5, .f32⟩
  | .hbm, ⟨1, _⟩ => ⟨S12, .f32⟩
  | .hbm, ⟨2, _⟩ => ⟨S5x12, .f32⟩
  | .hbm, ⟨3, _⟩ => ⟨S4194304x1, .f32⟩
  | .hbm, ⟨4, _⟩ => ⟨S4194304, .f32⟩
  | .hbm, ⟨5, _⟩ => ⟨S4194304x1, .f32⟩
  | .hbm, ⟨6, _⟩ => ⟨S4194304, .f32⟩
  | .hbm, ⟨7, _⟩ => ⟨S4194304x1, .f32⟩
  | .hbm, ⟨8, _⟩ => ⟨S4194304, .f32⟩
  | .hbm, ⟨9, _⟩ => ⟨S4194304x1, .f32⟩
  | .hbm, ⟨10, _⟩ => ⟨S4194304, .f32⟩
  | .hbm, ⟨11, _⟩ => ⟨S4194304x1, .f32⟩
  | .hbm, ⟨12, _⟩ => ⟨S4194304, .f32⟩
  | .hbm, ⟨13, _⟩ => ⟨S4194304, .f32⟩
  | .hbm, ⟨14, _⟩ => ⟨S4194304, .f32⟩
  | .hbm, ⟨15, _⟩ => ⟨S4194304, .f32⟩
  | .hbm, ⟨16, _⟩ => ⟨S4194304, .f32⟩
  | .hbm, ⟨17, _⟩ => ⟨S4194304, .f32⟩
  | .hbm, ⟨18, _⟩ => ⟨S4194304, .f32⟩
  | .hbm, ⟨19, _⟩ => ⟨S4194304, .f32⟩
  | .hbm, ⟨20, _⟩ => ⟨S4194304, .f32⟩
  | .hbm, ⟨21, _⟩ => ⟨S4194304, .f32⟩
  | .hbm, ⟨22, _⟩ => ⟨S4194304x1, .f32⟩
  | .hbm, ⟨23, _⟩ => ⟨S4194304x1, .f32⟩
  | .hbm, ⟨24, _⟩ => ⟨S4194304x1, .f32⟩
  | .hbm, ⟨25, _⟩ => ⟨S4194304x1, .f32⟩
  | .hbm, ⟨26, _⟩ => ⟨S4194304x1, .f32⟩
  | .hbm, ⟨27, _⟩ => ⟨S4194304x1, .f32⟩
  | .hbm, ⟨28, _⟩ => ⟨S4194304x1, .f32⟩
  | .hbm, ⟨29, _⟩ => ⟨S4194304x1, .f32⟩
  | .hbm, ⟨30, _⟩ => ⟨S4194304x1, .f32⟩
  | .hbm, ⟨31, _⟩ => ⟨S4194304x1, .f32⟩
  | .hbm, ⟨32, _⟩ => ⟨S4194304x1, .f32⟩
  | .hbm, ⟨33, _⟩ => ⟨S4194304x1, .f32⟩
  | .hbm, ⟨34, _⟩ => ⟨S4194304x12, .f32⟩
  | .hbm, ⟨35, _⟩ => ⟨S_, .f32⟩
  | .hbm, ⟨36, _⟩ => ⟨S12, .f32⟩
  | .hbm, ⟨37, _⟩ => ⟨S12, .f32⟩
  | .hbm, ⟨38, _⟩ => ⟨S1x12, .f32⟩
  | .hbm, ⟨39, _⟩ => ⟨S4194304x12, .f32⟩
  | .hbm, ⟨40, _⟩ => ⟨S4194304x12, .f32⟩
  | .hbm, ⟨41, _⟩ => ⟨S12x5, .f32⟩
  | .hbm, ⟨42, _⟩ => ⟨S4194304x5, .f32⟩
  | _, _ => ⟨S4194304x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_cst_0 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩

abbrev nD : Nat := 1
abbrev τ : Topo := Topo.v7x

variable {F : FTy → Type} [FloatOps F]

class Facts₀ : Prop where
  slices_S4194304x5_S4194304x1_0_0 : S4194304x5.Slices ![0, 0] S4194304x1
  shapeCasts_S4194304x1_S4194304 : S4194304x1.ShapeCasts S4194304
  slices_S4194304x5_S4194304x1_0_1 : S4194304x5.Slices ![0, 1] S4194304x1
  slices_S4194304x5_S4194304x1_0_2 : S4194304x5.Slices ![0, 2] S4194304x1
  slices_S4194304x5_S4194304x1_0_3 : S4194304x5.Slices ![0, 3] S4194304x1
  slices_S4194304x5_S4194304x1_0_4 : S4194304x5.Slices ![0, 4] S4194304x1
  bcast_S4194304_S4194304x1_0 : S4194304.BroadcastsInDim S4194304x1 (![0] : Fin 1 → Fin S4194304x1.rank)
  concatenates_S4194304x1_S4194304x1_S4194304x1_S4194304x1_S4194304x1_S4194304x1_S4194304x1_S4194304x1_S4194304x1_S4194304x1_S4194304x1_S4194304x1_S4194304x12_d1 : Shape.Concatenates [S4194304x1, S4194304x1, S4194304x1, S4194304x1, S4194304x1, S4194304x1, S4194304x1, S4194304x1, S4194304x1, S4194304x1, S4194304x1, S4194304x1] S4194304x12 1
  bcast_S_S12 : S_.BroadcastsInDim S12 (![] : Fin 0 → Fin S12.rank)
  bcast_S12_S1x12_1 : S12.BroadcastsInDim S1x12 (![1] : Fin 1 → Fin S1x12.rank)
  bcast_S1x12_S4194304x12_0_1 : S1x12.BroadcastsInDim S4194304x12 (![0, 1] : Fin 2 → Fin S4194304x12.rank)
  transposes_S5x12_S12x5_1_0 : S5x12.Transposes [1, 0] S12x5
  dot_S4194304x12_S12x5_S4194304x5_1_0_0_1_n_n_wf : DotDims.WF S4194304x12 S12x5 S4194304x5 [1] [0] [0] [1] [] []

variable [Facts₀]

def dot_S4194304x12_S12x5_S4194304x5_1_0_0_1_n_n : DotDims S4194304x12 S12x5 S4194304x5 where
  lhsContracting := [1]
  rhsContracting := [0]
  lhsNonContracting := [0]
  rhsNonContracting := [1]
  lhsBatch := []
  rhsBatch := []
  wf := dot_S4194304x12_S12x5_S4194304x5_1_0_0_1_n_n_wf

class Facts : Prop extends Facts₀ where

variable [Facts]
-- ==== Proof.RateLaw.lean ====
/-
  The rate law both programs compute, as one function of its three arrays.

  A state row has five entries z₀ … z₄. Twelve monomials of degree one or two are formed from them,
      z₀², z₁, z₀z₃, z₂, z₃², z₄, z₁z₄, z₂², z₁z₃, z₂z₀, z₄z₀, z₂z₃,
  each is multiplied by its own rate constant, and the twelve fluxes are contracted against a 12 × 5 table of
  stoichiometric coefficients: entry (r, j) of the result is

      Σ_{k < 12} (monomial_k (row r) · rate_k) · coefficient (k, j).

  Everything is over the extended reals. The only algebra used anywhere is that the product of two extended reals
  commutes, which holds at the infinities as well: one program multiplies the monomial by the rate constant, the
  other the rate constant by the monomial.
-/
import Idealize.ShloMosaic.Lib.ValueIdx

noncomputable section

namespace Cert.RateLaw

open Idealize.ShloMosaic Idealize.ShloMosaic.ValueIdx
open scoped BigOperators

/-- The twelve monomials of row `r` of an array of state rows, in the order the flux vector lists them. -/
def monomial {R : ℕ} (x : (⟨2, ![R, 5]⟩ : Shape).Idx → EReal) (r : Fin R) : Fin 12 → EReal :=
  ![x (ix2 r 0) * x (ix2 r 0), x (ix2 r 1), x (ix2 r 0) * x (ix2 r 3), x (ix2 r 2),
    x (ix2 r 3) * x (ix2 r 3), x (ix2 r 4), x (ix2 r 1) * x (ix2 r 4), x (ix2 r 2) * x (ix2 r 2),
    x (ix2 r 1) * x (ix2 r 3), x (ix2 r 2) * x (ix2 r 0), x (ix2 r 4) * x (ix2 r 0), x (ix2 r 2) * x (ix2 r 3)]

/-- Entry (r, j) of the result: the fluxes of row `r` contracted against column `j` of the coefficient table. -/
def rateAt {R : ℕ} (x : (⟨2, ![R, 5]⟩ : Shape).Idx → EReal) (sc : (⟨1, ![12]⟩ : Shape).Idx → EReal)
    (st : (⟨2, ![12, 5]⟩ : Shape).Idx → EReal) (r : Fin R) (j : Fin 5) : EReal :=
  ∑ k : Fin 12, (monomial x r k * sc (ix1 k)) * st (ix2 k j)

/-- The whole result array. -/
def rate {R : ℕ} (x : (⟨2, ![R, 5]⟩ : Shape).Idx → EReal) (sc : (⟨1, ![12]⟩ : Shape).Idx → EReal)
    (st : (⟨2, ![12, 5]⟩ : Shape).Idx → EReal) : (⟨2, ![R, 5]⟩ : Shape).Idx → EReal :=
  fun i => rateAt x sc st (i 0) (i 1)

theorem rate_ix2 {R : ℕ} (x : (⟨2, ![R, 5]⟩ : Shape).Idx → EReal) (sc : (⟨1, ![12]⟩ : Shape).Idx → EReal)
    (st : (⟨2, ![12, 5]⟩ : Shape).Idx → EReal) (r : Fin R) (j : Fin 5) : rate x sc st (ix2 r j) = rateAt x sc st r j := rfl

/-- The monomials of a row depend on that row's five entries only. -/
theorem monomial_congr {R R' : ℕ} (x : (⟨2, ![R, 5]⟩ : Shape).Idx → EReal) (x' : (⟨2, ![R', 5]⟩ : Shape).Idx → EReal)
    (r : Fin R) (r' : Fin R') (hx : ∀ c : Fin 5, x (ix2 r c) = x' (ix2 r' c)) : monomial x r = monomial x' r' := by
  unfold monomial
  rw [hx 0, hx 1, hx 2, hx 3, hx 4]

/-- An entry of the result depends on one state row, the twelve rate constants and one column of the table: a row of
    a block of the state array, read where the block sits in the array, gives the array's entry. -/
theorem rateAt_congr {R R' : ℕ} (x : (⟨2, ![R, 5]⟩ : Shape).Idx → EReal) (x' : (⟨2, ![R', 5]⟩ : Shape).Idx → EReal)
    (sc sc' : (⟨1, ![12]⟩ : Shape).Idx → EReal) (st st' : (⟨2, ![12, 5]⟩ : Shape).Idx → EReal)
    (r : Fin R) (r' : Fin R') (j j' : Fin 5) (hx : ∀ c : Fin 5, x (ix2 r c) = x' (ix2 r' c))
    (hsc : ∀ k : Fin 12, sc (ix1 k) = sc' (ix1 k)) (hst : ∀ k : Fin 12, st (ix2 k j) = st' (ix2 k j')) :
    rateAt x sc st r j = rateAt x' sc' st' r' j' := by
  unfold rateAt
  rw [monomial_congr x x' r r' hx]
  exact Finset.sum_congr rfl fun k _ => by rw [hsc k, hst k]

end Cert.RateLaw

end
-- ==== Proof.LibColumns.lean ====
/-
  Columns of a matrix, and a matrix assembled from columns, read at an index — for any extents and any element type.

  A column taken out of an `[a, n]` matrix as a one-column slice and flattened to a vector reads, at `i`, the matrix
  at `(i, column)`. A vector made a one-column matrix again (by a broadcast along a new trailing unit axis) reads the
  vector at the row. Twelve one-column matrices laid side by side read, at `(r, k)`, the `k`-th of them at row `r`.
  And a vector of per-column values laid as one row by a broadcast (`[b] → [1, b]`) and repeated down the rows by another
  (`[1, b] → [a, b]`) reads, at `(p, c)`, the vector at `c`.
-/
import Idealize.ShloMosaic.Lib.ValueLayout
import Idealize.ShloMosaic.Lib.Pipeline.Value

noncomputable section

namespace Cert.LibColumns

open Idealize.ShloMosaic Idealize.ShloMosaic.ValueIdx

variable {α : Type}

/-! ## One column in, one column out -/

/-- An `[a, 1]` array cast to `[a]` reads, at `i`, the operand's one column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, n]` matrix — the one-column slice at offset `o = k`, cast to a vector — reads, at `i`,
    the matrix at `(i, k)`. -/
theorem column_apply {a n : ℕ} (o : ℕ) (x : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (i : Fin a) (k : Fin n) (hk : k.val = o) :
    shapeCast ⟨1, ![a]⟩ (extractStridedSlice ⟨2, ![a, 1]⟩ ![0, o] x hs) hc (ix1 i) = x (ix2 i k) :=
  (shapeCast_a1_a_apply _ hc i).trans (slice2_axis1_apply o x hs i (0 : Fin 1) k (by show k.val = o + 0; omega))

/-- A vector `[a]` broadcast along a new trailing unit axis (`dims = [0]`) reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A row of per-column values over a matrix, the host's way -/

/-- A vector `[b]` laid as one row by a broadcast (`dims = [1]`) reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` repeated down `a` rows by a broadcast (`dims = [0, 1]`) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- Per-column values `x : [b]` laid as a row and repeated down the rows, both by broadcasts: `x c` everywhere in column `c`. -/
theorem perColumnHost_apply {a b : ℕ} (x : (⟨1, ![b]⟩ : Shape).Idx → α)
    (h₁ : (⟨1, ![b]⟩ : Shape).BroadcastsInDim ⟨2, ![1, b]⟩ (![1] : Fin 1 → Fin (⟨2, ![1, b]⟩ : Shape).rank))
    (h₂ : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![1, b]⟩ ![1] h₁ x) (ix2 p c) = x (ix1 c) :=
  (broadcastInDim_1b_ab_apply _ h₂ p c).trans (broadcastInDim_b_1b_apply x h₁ 0 c)

/-! ## Twelve columns side by side -/

/-- Twelve one-column matrices concatenated along the column axis read, at `(r, k)`, the `k`-th of them at row `r`. -/
theorem stack12_apply {a : ℕ} (p0 p1 p2 p3 p4 p5 p6 p7 p8 p9 p10 p11 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩] ⟨2, ![a, 12]⟩ 1)
    (r : Fin a) (k : Fin 12) :
    concatenate ⟨2, ![a, 12]⟩ 1 [⟨⟨2, ![a, 1]⟩, p0⟩, ⟨⟨2, ![a, 1]⟩, p1⟩, ⟨⟨2, ![a, 1]⟩, p2⟩, ⟨⟨2, ![a, 1]⟩, p3⟩,
        ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩,
        ⟨⟨2, ![a, 1]⟩, p9⟩, ⟨⟨2, ![a, 1]⟩, p10⟩, ⟨⟨2, ![a, 1]⟩, p11⟩] h (ix2 r k)
      = (![p0, p1, p2, p3, p4, p5, p6, p7, p8, p9, p10, p11] : Fin 12 → (⟨2, ![a, 1]⟩ : Shape).Idx → α) k (ix2 r (0 : Fin 1)) := by
  refine concatenate_ofFn_unit_apply (t := ⟨2, ![a, 12]⟩) (s₁ := ⟨2, ![a, 1]⟩) (1 : Fin 2) (N := 12)
    (![p0, p1, p2, p3, p4, p5, p6, p7, p8, p9, p10, p11] : Fin 12 → (⟨2, ![a, 1]⟩ : Shape).Idx → α) h rfl rfl (ix2 r k) k rfl
    (ix2 r (0 : Fin 1)) fun b hb => ?_
  match b with
  | ⟨0, _⟩ => rfl
  | ⟨1, _⟩ => exact absurd rfl hb

/-- Twelve values listed, a function applied to the `k`-th of them: it is the `k`-th of the twelve results. -/
theorem vec12_map {β γ : Type} (g : β → γ) (a0 a1 a2 a3 a4 a5 a6 a7 a8 a9 a10 a11 : β)
    (m0 m1 m2 m3 m4 m5 m6 m7 m8 m9 m10 m11 : γ)
    (h0 : g a0 = m0) (h1 : g a1 = m1) (h2 : g a2 = m2) (h3 : g a3 = m3) (h4 : g a4 = m4) (h5 : g a5 = m5)
    (h6 : g a6 = m6) (h7 : g a7 = m7) (h8 : g a8 = m8) (h9 : g a9 = m9) (h10 : g a10 = m10) (h11 : g a11 = m11)
    (k : Fin 12) :
    g ((![a0, a1, a2, a3, a4, a5, a6, a7, a8, a9, a10, a11] : Fin 12 → β) k)
      = (![m0, m1, m2, m3, m4, m5, m6, m7, m8, m9, m10, m11] : Fin 12 → γ) k := by
  subst h0 h1 h2 h3 h4 h5 h6 h7 h8 h9 h10 h11
  fin_cases k <;> rfl

end Cert.LibColumns

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.KernelBlock.lean ====
/-
  What the kernel body computes from one block of state rows.

  The body loads a block of 4096 state rows, the twelve rate constants and the 12 × 5 coefficient table. It takes the
  five columns of the block, forms the twelve monomials as vectors over the rows, lays them side by side as a
  4096 × 12 matrix, multiplies column k by the k-th rate constant (the constants laid as one row and repeated down
  the rows), and contracts the result with the table. Rounding the two factors to sixteen bits before the contraction
  changes nothing over the extended reals, and the contraction into a zero accumulator is the plain sum over the
  twelve channels. So entry (p, j) of what the body stores is the rate law's entry (p, j) of the block.
-/
import proofs.«116628_j34102040330828_2_alg».proof.Proof.Gen.KernelIdeal.Skeleton
import proofs.«116628_j34102040330828_2_alg».proof.Proof.RateLaw
import proofs.«116628_j34102040330828_2_alg».proof.Proof.LibColumns
import proofs.«116628_j34102040330828_2_alg».proof.Proof.LibRowwise
import proofs.«116628_j34102040330828_2_alg».proof.Proof.LibMatmul2d

noncomputable section

namespace Cert.KernelIdeal.Block

open Cert.KernelIdeal Cert.KernelIdeal.Gen Idealize.ShloMosaic Idealize.ShloMosaic.ValueIdx Cert.RateLaw
open scoped BigOperators

/-- One term of the contraction: the two roundings are the identity, the elementwise product is the product. -/
theorem entry_eq (A B : FVec Ideal S4096x12 .f32) (W : FVec Ideal S12x5 .f32) (h : FTy.bits .bf16 < FTy.bits .f32)
    (i : S4096x12.Idx) (i' : S12x5.Idx) :
    (truncf .bf16 (mulf A B) h i : EReal) * (truncf .bf16 W h i' : EReal) = (A i * B i) * W i' := rfl

/-- Entry (p, j) of the stored block is the rate law's entry (p, j) of the loaded block. -/
theorem pay_apply (x0 : Vec Ideal S4096x5 .f32) (x1 : Vec Ideal S12 .f32) (x2 : Vec Ideal S12x5 .f32) (p : Fin 4096) (j : Fin 5) :
    k0_pay1 x0 x1 x2 (ix2 p j) = rateAt x0 x1 x2 p j := by
  -- the five columns of the block, at row p
  have z0 := Cert.LibColumns.column_apply 0 x0 slices_S4096x5_o0_0_S4096x1 shapeCasts_S4096x1_S4096 p (0 : Fin 5) rfl
  have z1 := Cert.LibColumns.column_apply 1 x0 slices_S4096x5_o0_1_S4096x1 shapeCasts_S4096x1_S4096 p (1 : Fin 5) rfl
  have z2 := Cert.LibColumns.column_apply 2 x0 slices_S4096x5_o0_2_S4096x1 shapeCasts_S4096x1_S4096 p (2 : Fin 5) rfl
  have z3 := Cert.LibColumns.column_apply 3 x0 slices_S4096x5_o0_3_S4096x1 shapeCasts_S4096x1_S4096 p (3 : Fin 5) rfl
  have z4 := Cert.LibColumns.column_apply 4 x0 slices_S4096x5_o0_4_S4096x1 shapeCasts_S4096x1_S4096 p (4 : Fin 5) rfl
  -- a monomial of degree one, and one of degree two, made a one-column matrix again, at row p
  have one : ∀ (a : FVec Ideal S4096 .f32) (A : EReal), a (ix1 p) = A →
      shapeCast S4096x1 a shapeCasts_S4096_S4096x1 (ix2 p (0 : Fin 1)) = A :=
    fun a A h => (Cert.LibRowwise.shapeCast_a_a1_apply a _ p 0).trans h
  have two : ∀ (a b : FVec Ideal S4096 .f32) (A B : EReal), a (ix1 p) = A → b (ix1 p) = B →
      shapeCast S4096x1 (mulf a b) shapeCasts_S4096_S4096x1 (ix2 p (0 : Fin 1)) = A * B :=
    fun a b A B ha hb => (Cert.LibRowwise.shapeCast_a_a1_apply (mulf a b) _ p 0).trans
      (congrArg₂ (fun u v : EReal => u * v) ha hb)
  unfold k0_pay1
  refine (Cert.LibMatmul2d.matmul_plain_apply _ _ p j).trans ?_
  unfold rateAt
  refine Finset.sum_congr rfl fun k _ => ?_
  refine (entry_eq _ _ _ _ _ _).trans (congrArg₂ (· * ·) (congrArg₂ (· * ·) ?_ ?_) ?_)
  · -- the k-th of the twelve columns, at row p, is the k-th monomial of that row
    refine (Cert.LibColumns.stack12_apply _ _ _ _ _ _ _ _ _ _ _ _ _ p k).trans ?_
    unfold monomial
    exact Cert.LibColumns.vec12_map (β := S4096x1.Idx → EReal) (γ := EReal) (fun q => q (ix2 p (0 : Fin 1)))
      _ _ _ _ _ _ _ _ _ _ _ _ _ _ _ _ _ _ _ _ _ _ _ _
      (two _ _ _ _ z0 z0) (one _ _ z1) (two _ _ _ _ z0 z3) (one _ _ z2) (two _ _ _ _ z3 z3) (one _ _ z4)
      (two _ _ _ _ z1 z4) (two _ _ _ _ z2 z2) (two _ _ _ _ z1 z3) (two _ _ _ _ z2 z0) (two _ _ _ _ z4 z0)
      (two _ _ _ _ z2 z3) k
  · -- the rate constants, one row repeated down the block
    exact (Cert.LibRowwise.perColumn_apply _ _ _ p k).trans (congrFun (shapeCast_self x1 _) (ix1 k))
  · -- the coefficient table, as loaded
    exact congrFun (shapeCast_self x2 _) (ix2 k j)

/-- The stored block is the rate law of the loaded block. -/
theorem pay_eq (x0 : Vec Ideal S4096x5 .f32) (x1 : Vec Ideal S12 .f32) (x2 : Vec Ideal S12x5 .f32) :
    k0_pay1 x0 x1 x2 = rate x0 x1 x2 := by
  funext y
  obtain ⟨p, j, rfl⟩ : ∃ (p : Fin 4096) (j : Fin 5), y = ix2 p j := ⟨y 0, y 1, eq_ix2 y⟩
  exact pay_apply x0 x1 x2 p j

end Cert.KernelIdeal.Block

end
-- ==== Proof.KernelArray.lean ====
/-
  The kernel's result array as one function of its arguments.

  The grid has 1024 points; point t stages rows 4096·t … 4096·t + 4095 of the state array, the whole vector of rate
  constants and the whole coefficient table, and writes back rows 4096·t … 4096·t + 4095 of the result. A row of the
  result depends on the same row of the state only, so what point t writes is block t of the rate law applied to the
  whole arrays; the 1024 blocks tile the 4194304 rows, so the result array is the rate law of the arguments. The rate
  constants are ten to the power of each weight and the table is the transposed literal: both are computed on the host
  before the grid starts.
-/
import proofs.«116628_j34102040330828_2_alg».proof.Proof.Gen.KernelIdeal.Value
import proofs.«116628_j34102040330828_2_alg».proof.Proof.KernelBlock
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.RateLaw
open Idealize.ShloMosaic.Pipeline (Dat)

variable (m : (ℓ : Loc nD τ sig) → Buf (Elt Ideal) ℓ) (ρ : Dev nD → PrngReg)

/-- The rate constants: ten to the power of each weight. -/
def rateConst (w : FVec Ideal S12 .f32) : FVec Ideal S12 .f32 :=
  Host.powf (broadcastInDim S12 ![] bcast_S_S12 (constant (F := Ideal) S_ .f32 0x41200000#32)) w

/-- The coefficient table: the literal 5 × 12 matrix, transposed. -/
def coeff : FVec Ideal S12x5 .f32 :=
  transpose S12x5 [1, 0] (fun i => FloatOps.ofBits (F := Ideal) .f32 (lit0 (S5x12.rowMajor i))) transposes_S5x12_S12x5_1_0

/-- The grid finds the rate constants in their buffer … -/
theorem V_rateConst (c : Dev nD) : (V m c main_v1 : S12.Idx → EReal) = rateConst (m ((c : Thread nD τ).loc main_arg1)) := by
  dsimp only [Gen.V, Gen.hostOps0]; after_results; rfl

/-- … and the coefficient table in its. -/
theorem V_coeff (c : Dev nD) : (V m c main_v2 : S12x5.Idx → EReal) = coeff := by
  dsimp only [Gen.V, Gen.hostOps0]; after_results; rfl

theorem hz2 : (![0, 0] : Fin 2 → Nat) = fun _ => 0 := funext fun a => by fin_cases a <;> rfl
theorem hz1 : (![0] : Fin 1 → Nat) = fun _ => 0 := funext fun a => by fin_cases a <;> rfl

/-- The block indices at point t: the state's and the result's row block is t, everything else stays at block 0. -/
theorem idx_facts : ∀ t : Fin cfg0.N, win0_0.index t (0 : Fin 2) = t.val ∧ win0_0.index t (1 : Fin 2) = 0
    ∧ win0_1.index t (0 : Fin 1) = 0 ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the rate law of the arrays as the grid finds them. -/
theorem flushed_eq (c : Dev nD) (t : Fin cfg0.N) :
    (dats m 0 c).flushed 3 t = ((cfg0.win 3).blk t).view.read (Elt Ideal)
      (rate (V m c main_arg0) (V m c main_v1) (V m c main_v2)) := by
  rw [Value.flushed3]
  unfold out0_3
  rw [View.canon_unit_zero hz2]
  simp only [View.ld_unit_zero (S := S4096x5) hz2, View.ld_unit_zero (S := S12) hz1, View.ld_unit_zero (S := S12x5) hz2]
  rw [Block.pay_eq]
  obtain ⟨e00, e01, e10, e20, e21, e30, e31⟩ := idx_facts t
  funext y
  show rateAt (iblk m c 0 t) (iblk m c 1 t) (iblk m c 2 t) (y 0) (y 1)
    = rateAt (V m c main_arg0) (V m c main_v1) (V m c main_v2)
        ((((cfg0.win 3).blk t).view.emb y) 0) ((((cfg0.win 3).blk t).view.emb y) 1)
  refine rateAt_congr _ _ _ _ _ _ _ _ _ _ (fun cc => ?_) (fun k => ?_) (fun k => ?_)
  · -- row (y 0) of the state block is row 4096·t + (y 0) of the state array
    show V m c main_arg0 (((cfg0.win 0).blk t).view.emb (ix2 (y 0) cc))
      = V m c main_arg0 (ix2 ((((cfg0.win 3).blk t).view.emb y) 0) cc)
    refine congrArg _ (funext fun a => Fin.ext ?_)
    match a with
    | ⟨0, _⟩ =>
      show win0_0.index t (0 : Fin 2) * 4096 + 1 * (y 0).val = win0_3.index t (0 : Fin 2) * 4096 + 1 * (y 0).val
      omega
    | ⟨1, _⟩ =>
      show win0_0.index t (1 : Fin 2) * 5 + 1 * cc.val = cc.val
      omega
  · -- the rate constants' block is the whole vector
    show V m c main_v1 (((cfg0.win 1).blk t).view.emb (ix1 k)) = V m c main_v1 (ix1 k)
    refine congrArg _ (funext fun a => Fin.ext ?_)
    match a with
    | ⟨0, _⟩ =>
      show win0_1.index t (0 : Fin 1) * 12 + 1 * k.val = k.val
      omega
  · -- the table's block is the whole table, and the result's column is the block's column
    show V m c main_v2 (((cfg0.win 2).blk t).view.emb (ix2 k (y 1)))
      = V m c main_v2 (ix2 k ((((cfg0.win 3).blk t).view.emb y) 1))
    refine congrArg _ (funext fun a => Fin.ext ?_)
    match a with
    | ⟨0, _⟩ =>
      show win0_2.index t (0 : Fin 2) * 12 + 1 * k.val = k.val
      omega
    | ⟨1, _⟩ =>
      show win0_2.index t (1 : Fin 2) * 5 + 1 * (y 1).val = win0_3.index t (1 : Fin 2) * 5 + 1 * (y 1).val
      omega

/-- An index of the result is in point t's block iff each coordinate is in the block's range on its axis. -/
theorem mem_blk (t : Fin cfg0.N) (i : S4194304x5.Idx) :
    i ∈ ((cfg0.win 3).blk t).view.set ↔ ∀ a : Fin 2, win0_3.index t a * S4096x5.size a ≤ (i a).val
      ∧ (i a).val < win0_3.index t a * S4096x5.size a + S4096x5.size a := by
  show i ∈ ((View.whole main_v3).slice (win0_3.rect t)).set ↔ _
  rw [View.set_slice_whole, Rect.mem_set_unit]
  exact Iff.rfl

/-- Every row of the result lies in the block of the point its number divided by 4096 names. -/
theorem cover (i : S4194304x5.Idx) :
    ∃ t : Fin cfg0.N, (cfg0.win 3).flush t = true ∧ i ∈ ((cfg0.win 3).blk t).view.set := by
  have hi0 : (i 0).val < 4194304 := (i 0).isLt
  have hi1 : (i 1).val < 5 := (i 1).isLt
  have hN : cfg0.N = 1024 := N_0
  refine ⟨⟨(i 0).val / 4096, by rw [hN]; omega⟩, flush0_3 _, ?_⟩
  obtain ⟨-, -, -, -, -, e30, e31⟩ := idx_facts ⟨(i 0).val / 4096, by rw [hN]; omega⟩
  rw [mem_blk]
  intro a
  match a with
  | ⟨0, _⟩ =>
    show win0_3.index _ (0 : Fin 2) * 4096 ≤ (i 0).val ∧ (i 0).val < win0_3.index _ (0 : Fin 2) * 4096 + 4096
    rw [e30]
    show (i 0).val / 4096 * 4096 ≤ (i 0).val ∧ (i 0).val < (i 0).val / 4096 * 4096 + 4096
    omega
  | ⟨1, _⟩ =>
    show win0_3.index _ (1 : Fin 2) * 5 ≤ (i 1).val ∧ (i 1).val < win0_3.index _ (1 : Fin 2) * 5 + 5
    rw [e31]
    omega

/-- The result array after the run: the rate law of the state as launched, the rate constants and the table. -/
theorem final (c : Dev nD) :
    (dats m 0 c).arrAt 3 cfg0.N
      = rate (m ((c : Thread nD τ).loc main_arg0)) (rateConst (m ((c : Thread nD τ).loc main_arg1))) coeff := by
  rw [(dats m 0 c).arrAt_eq_of_cover 3 _ (fun t _ => flushed_eq m c t) cover, V_main_arg0, V_rateConst, V_coeff]

/-- The kernel's run: it terminates with the result at the rate law of the arguments, the arguments unchanged. -/
theorem run : θ_run defs (onTc (τ := τ) (main (F := Ideal))) ⟨m, fun _ => 0, ρ⟩ fun r => ∀ c : Dev nD,
      r.2.mem ((c : Thread nD τ).loc main_v3)
        = rate (m ((c : Thread nD τ).loc main_arg0)) (rateConst (m ((c : Thread nD τ).loc main_arg1))) coeff
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.ReferenceRun.lean ====
/-
  The reference's run, read back.

  The reference is a straight line of host operations: it cuts the five columns out of the state array, forms the
  twelve monomials, stacks them as the columns of a matrix, scales column k by ten to the power of the k-th weight, and
  contracts with the transposed coefficient literal. Run from any memory it terminates, with the result buffer holding
  those operations composed (`out`) of the two argument arrays, and the arguments as they were.
-/
import proofs.«116628_j34102040330828_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation of twelve operands leaves its result at its function of the twelve operands' contents, each read at
    its own buffer. -/
theorem nary12_result {τ : Topo} {sig : RefSig} {Val : EltTy → Type}
    {x0 x1 x2 x3 x4 x5 x6 x7 x8 x9 x10 x11 y : Ref sig .tc}
    (f : ((k : Fin 12) → ((![x0, x1, x2, x3, x4, x5, x6, x7, x8, x9, x10, x11] : Fin 12 → Ref sig .tc) k).ty.Contents Val) → y.ty.Contents Val)
    (hxs hy) (V : Valuation τ sig Val) :
    (nary (τ := τ) ![x0, x1, x2, x3, x4, x5, x6, x7, x8, x9, x10, x11] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
          (Fin.cons (V (Proc.devRef .tc x6)) (Fin.cons (V (Proc.devRef .tc x7)) (Fin.cons (V (Proc.devRef .tc x8))
          (Fin.cons (V (Proc.devRef .tc x9)) (Fin.cons (V (Proc.devRef .tc x10)) (Fin.cons (V (Proc.devRef .tc x11))
          (fun i => i.elim0))))))))))))) := by
  rw [nary_result]; congr 1; funext k; fin_cases k <;> rfl

/-- @main's 41 operations, in order. -/
abbrev ops : List (HloOp τ sig (Elt F)) :=
  [
    nullary main_cst (fun i => FloatOps.ofBits .f32 (lit0 (S5x12.rowMajor i))),
    unary main_arg0 main_v0 ((extractStridedSlice S4194304x1 ![0, 0] · slices_S4194304x5_S4194304x1_0_0) : (⟨S4194304x5, .f32⟩ : BufTy).Contents (Elt F) → (⟨S4194304x1, .f32⟩ : BufTy).Contents (Elt F)),
    reshape main_v0 main_v1 rfl shapeCasts_S4194304x1_S4194304,
    unary main_arg0 main_v2 ((extractStridedSlice S4194304x1 ![0, 1] · slices_S4194304x5_S4194304x1_0_1) : (⟨S4194304x5, .f32⟩ : BufTy).Contents (Elt F) → (⟨S4194304x1, .f32⟩ : BufTy).Contents (Elt F)),
    reshape main_v2 main_v3 rfl shapeCasts_S4194304x1_S4194304,
    unary main_arg0 main_v4 ((extractStridedSlice S4194304x1 ![0, 2] · slices_S4194304x5_S4194304x1_0_2) : (⟨S4194304x5, .f32⟩ : BufTy).Contents (Elt F) → (⟨S4194304x1, .f32⟩ : BufTy).Contents (Elt F)),
    reshape main_v4 main_v5 rfl shapeCasts_S4194304x1_S4194304,
    unary main_arg0 main_v6 ((extractStridedSlice S4194304x1 ![0, 3] · slices_S4194304x5_S4194304x1_0_3) : (⟨S4194304x5, .f32⟩ : BufTy).Contents (Elt F) → (⟨S4194304x1, .f32⟩ : BufTy).Contents (Elt F)),
    reshape main_v6 main_v7 rfl shapeCasts_S4194304x1_S4194304,
    unary main_arg0 main_v8 ((extractStridedSlice S4194304x1 ![0, 4] · slices_S4194304x5_S4194304x1_0_4) : (⟨S4194304x5, .f32⟩ : BufTy).Contents (Elt F) → (⟨S4194304x1, .f32⟩ : BufTy).Contents (Elt F)),
    reshape main_v8 main_v9 rfl shapeCasts_S4194304x1_S4194304,
    binary main_v1 main_v1 main_v10 (mulf : (⟨S4194304, .f32⟩ : BufTy).Contents (Elt F) → (⟨S4194304, .f32⟩ : BufTy).Contents (Elt F) → (⟨S4194304, .f32⟩ : BufTy).Contents (Elt F)),
    binary main_v1 main_v7 main_v11 (mulf : (⟨S4194304, .f32⟩ : BufTy).Contents (Elt F) → (⟨S4194304, .f32⟩ : BufTy).Contents (Elt F) → (⟨S4194304, .f32⟩ : BufTy).Contents (Elt F)),
    binary main_v7 main_v7 main_v12 (mulf : (⟨S4194304, .f32⟩ : BufTy).Contents (Elt F) → (⟨S4194304, .f32⟩ : BufTy).Contents (Elt F) → (⟨S4194304, .f32⟩ : BufTy).Contents (Elt F)),
    binary main_v3 main_v9 main_v13 (mulf : (⟨S4194304, .f32⟩ : BufTy).Contents (Elt F) → (⟨S4194304, .f32⟩ : BufTy).Contents (Elt F) → (⟨S4194304, .f32⟩ : BufTy).Contents (Elt F)),
    binary main_v5 main_v5 main_v14 (mulf : (⟨S4194304, .f32⟩ : BufTy).Contents (Elt F) → (⟨S4194304, .f32⟩ : BufTy).Contents (Elt F) → (⟨S4194304, .f32⟩ : BufTy).Contents (Elt F)),
    binary main_v3 main_v7 main_v15 (mulf : (⟨S4194304, .f32⟩ : BufTy).Contents (Elt F) → (⟨S4194304, .f32⟩ : BufTy).Contents (Elt F) → (⟨S4194304, .f32⟩ : BufTy).Contents (Elt F)),
    binary main_v5 main_v1 main_v16 (mulf : (⟨S4194304, .f32⟩ : BufTy).Contents (Elt F) → (⟨S4194304, .f32⟩ : BufTy).Contents (Elt F) → (⟨S4194304, .f32⟩ : BufTy).Contents (Elt F)),
    binary main_v9 main_v1 main_v17 (mulf : (⟨S4194304, .f32⟩ : BufTy).Contents (Elt F) → (⟨S4194304, .f32⟩ : BufTy).Contents (Elt F) → (⟨S4194304, .f32⟩ : BufTy).Contents (Elt F)),
    binary main_v5 main_v7 main_v18 (mulf : (⟨S4194304, .f32⟩ : BufTy).Contents (Elt F) → (⟨S4194304, .f32⟩ : BufTy).Contents (Elt F) → (⟨S4194304, .f32⟩ : BufTy).Contents (Elt F)),
    unary main_v10 main_v19 (broadcastInDim S4194304x1 ![0] bcast_S4194304_S4194304x1_0 : (⟨S4194304, .f32⟩ : BufTy).Contents (Elt F) → (⟨S4194304x1, .f32⟩ : BufTy).Contents (Elt F)),
    unary main_v3 main_v20 (broadcastInDim S4194304x1 ![0] bcast_S4194304_S4194304x1_0 : (⟨S4194304, .f32⟩ : BufTy).Contents (Elt F) → (⟨S4194304x1, .f32⟩ : BufTy).Contents (Elt F)),
    unary main_v11 main_v21 (broadcastInDim S4194304x1 ![0] bcast_S4194304_S4194304x1_0 : (⟨S4194304, .f32⟩ : BufTy).Contents (Elt F) → (⟨S4194304x1, .f32⟩ : BufTy).Contents (Elt F)),
    unary main_v5 main_v22 (broadcastInDim S4194304x1 ![0] bcast_S4194304_S4194304x1_0 : (⟨S4194304, .f32⟩ : BufTy).Contents (Elt F) → (⟨S4194304x1, .f32⟩ : BufTy).Contents (Elt F)),
    unary main_v12 main_v23 (broadcastInDim S4194304x1 ![0] bcast_S4194304_S4194304x1_0 : (⟨S4194304, .f32⟩ : BufTy).Contents (Elt F) → (⟨S4194304x1, .f32⟩ : BufTy).Contents (Elt F)),
    unary main_v9 main_v24 (broadcastInDim S4194304x1 ![0] bcast_S4194304_S4194304x1_0 : (⟨S4194304, .f32⟩ : BufTy).Contents (Elt F) → (⟨S4194304x1, .f32⟩ : BufTy).Contents (Elt F)),
    unary main_v13 main_v25 (broadcastInDim S4194304x1 ![0] bcast_S4194304_S4194304x1_0 : (⟨S4194304, .f32⟩ : BufTy).Contents (Elt F) → (⟨S4194304x1, .f32⟩ : BufTy).Contents (Elt F)),
    unary main_v14 main_v26 (broadcastInDim S4194304x1 ![0] bcast_S4194304_S4194304x1_0 : (⟨S4194304, .f32⟩ : BufTy).Contents (Elt F) → (⟨S4194304x1, .f32⟩ : BufTy).Contents (Elt F)),
    unary main_v15 main_v27 (broadcastInDim S4194304x1 ![0] bcast_S4194304_S4194304x1_0 : (⟨S4194304, .f32⟩ : BufTy).Contents (Elt F) → (⟨S4194304x1, .f32⟩ : BufTy).Contents (Elt F)),
    unary main_v16 main_v28 (broadcastInDim S4194304x1 ![0] bcast_S4194304_S4194304x1_0 : (⟨S4194304, .f32⟩ : BufTy).Contents (Elt F) → (⟨S4194304x1, .f32⟩ : BufTy).Contents (Elt F)),
    unary main_v17 main_v29 (broadcastInDim S4194304x1 ![0] bcast_S4194304_S4194304x1_0 : (⟨S4194304, .f32⟩ : BufTy).Contents (Elt F) → (⟨S4194304x1, .f32⟩ : BufTy).Contents (Elt F)),
    unary main_v18 main_v30 (broadcastInDim S4194304x1 ![0] bcast_S4194304_S4194304x1_0 : (⟨S4194304, .f32⟩ : BufTy).Contents (Elt F) → (⟨S4194304x1, .f32⟩ : BufTy).Contents (Elt F)),
    nary ![main_v19, main_v20, main_v21, main_v22, main_v23, main_v24, main_v25, main_v26, main_v27, main_v28, main_v29, main_v30] main_v31 (fun u => concatenate S4194304x12 1 [⟨S4194304x1, u 0⟩, ⟨S4194304x1, u 1⟩, ⟨S4194304x1, u 2⟩, ⟨S4194304x1, u 3⟩, ⟨S4194304x1, u 4⟩, ⟨S4194304x1, u 5⟩, ⟨S4194304x1, u 6⟩, ⟨S4194304x1, u 7⟩, ⟨S4194304x1, u 8⟩, ⟨S4194304x1, u 9⟩, ⟨S4194304x1, u 10⟩, ⟨S4194304x1, u 11⟩] concatenates_S4194304x1_S4194304x1_S4194304x1_S4194304x1_S4194304x1_S4194304x1_S4194304x1_S4194304x1_S4194304x1_S4194304x1_S4194304x1_S4194304x1_S4194304x12_d1),
    nullary main_cst_0 (constant S_ .f32 0x41200000#32),
    unary main_cst_0 main_v32 (broadcastInDim S12 ![] bcast_S_S12 : (⟨S_, .f32⟩ : BufTy).Contents (Elt F) → (⟨S12, .f32⟩ : BufTy).Contents (Elt F)),
    binary main_v32 main_arg1 main_v33 (Host.powf : (⟨S12, .f32⟩ : BufTy).Contents (Elt F) → (⟨S12, .f32⟩ : BufTy).Contents (Elt F) → (⟨S12, .f32⟩ : BufTy).Contents (Elt F)),
    unary main_v33 main_v34 (broadcastInDim S1x12 ![1] bcast_S12_S1x12_1 : (⟨S12, .f32⟩ : BufTy).Contents (Elt F) → (⟨S1x12, .f32⟩ : BufTy).Contents (Elt F)),
    unary main_v34 main_v35 (broadcastInDim S4194304x12 ![0, 1] bcast_S1x12_S4194304x12_0_1 : (⟨S1x12, .f32⟩ : BufTy).Contents (Elt F) → (⟨S4194304x12, .f32⟩ : BufTy).Contents (Elt F)),
    binary main_v35 main_v31 main_v36 (mulf : (⟨S4194304x12, .f32⟩ : BufTy).Contents (Elt F) → (⟨S4194304x12, .f32⟩ : BufTy).Contents (Elt F) → (⟨S4194304x12, .f32⟩ : BufTy).Contents (Elt F)),
    unary main_cst main_v37 ((transpose S12x5 [1, 0] · transposes_S5x12_S12x5_1_0) : (⟨S5x12, .f32⟩ : BufTy).Contents (Elt F) → (⟨S12x5, .f32⟩ : BufTy).Contents (Elt F)),
    binary main_v36 main_v37 main_v38 ((fun l r => Host.dotGeneral dot_S4194304x12_S12x5_S4194304x5_1_0_0_1_n_n none l r) : (⟨S4194304x12, .f32⟩ : BufTy).Contents (Elt F) → (⟨S12x5, .f32⟩ : BufTy).Contents (Elt F) → (⟨S4194304x5, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., binary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nullary_bufs_sub .., unary_bufs_sub .., binary_bufs_sub .., unary_bufs_sub .., unary_bufs_sub .., binary_bufs_sub .., unary_bufs_sub .., binary_bufs_sub ..⟩

/-- The reference's operations composed: the result as a term of the two arguments. -/
def out (x : FVec F S4194304x5 .f32) (w : FVec F S12 .f32) : FVec F S4194304x5 .f32 :=
  have z0 : FVec F S4194304 .f32 := shapeCast S4194304 (extractStridedSlice S4194304x1 ![0, 0] x slices_S4194304x5_S4194304x1_0_0) shapeCasts_S4194304x1_S4194304
  have z1 : FVec F S4194304 .f32 := shapeCast S4194304 (extractStridedSlice S4194304x1 ![0, 1] x slices_S4194304x5_S4194304x1_0_1) shapeCasts_S4194304x1_S4194304
  have z2 : FVec F S4194304 .f32 := shapeCast S4194304 (extractStridedSlice S4194304x1 ![0, 2] x slices_S4194304x5_S4194304x1_0_2) shapeCasts_S4194304x1_S4194304
  have z3 : FVec F S4194304 .f32 := shapeCast S4194304 (extractStridedSlice S4194304x1 ![0, 3] x slices_S4194304x5_S4194304x1_0_3) shapeCasts_S4194304x1_S4194304
  have z4 : FVec F S4194304 .f32 := shapeCast S4194304 (extractStridedSlice S4194304x1 ![0, 4] x slices_S4194304x5_S4194304x1_0_4) shapeCasts_S4194304x1_S4194304
  have col : FVec F S4194304 .f32 → FVec F S4194304x1 .f32 := fun v => broadcastInDim S4194304x1 ![0] bcast_S4194304_S4194304x1_0 v
  have stack : FVec F S4194304x12 .f32 := concatenate S4194304x12 1
    [⟨S4194304x1, col (mulf z0 z0)⟩, ⟨S4194304x1, col z1⟩, ⟨S4194304x1, col (mulf z0 z3)⟩, ⟨S4194304x1, col z2⟩,
      ⟨S4194304x1, col (mulf z3 z3)⟩, ⟨S4194304x1, col z4⟩, ⟨S4194304x1, col (mulf z1 z4)⟩, ⟨S4194304x1, col (mulf z2 z2)⟩,
      ⟨S4194304x1, col (mulf z1 z3)⟩, ⟨S4194304x1, col (mulf z2 z0)⟩, ⟨S4194304x1, col (mulf z4 z0)⟩, ⟨S4194304x1, col (mulf z2 z3)⟩]
    concatenates_S4194304x1_S4194304x1_S4194304x1_S4194304x1_S4194304x1_S4194304x1_S4194304x1_S4194304x1_S4194304x1_S4194304x1_S4194304x1_S4194304x1_S4194304x12_d1
  have sc : FVec F S12 .f32 := Host.powf (broadcastInDim S12 ![] bcast_S_S12 (constant S_ .f32 0x41200000#32)) w
  have scM : FVec F S4194304x12 .f32 := broadcastInDim S4194304x12 ![0, 1] bcast_S1x12_S4194304x12_0_1 (broadcastInDim S1x12 ![1] bcast_S12_S1x12_1 sc)
  have st : FVec F S12x5 .f32 := transpose S12x5 [1, 0] (fun i => FloatOps.ofBits .f32 (lit0 (S5x12.rowMajor i))) transposes_S5x12_S12x5_1_0
  Host.dotGeneral dot_S4194304x12_S12x5_S4194304x5_1_0_0_1_n_n none (mulf scM stack) st

/-- The results of the line by one pass, the twelve-operand concatenation included. -/
macro "after_results_line" : tactic =>
  `(tactic| (simp (disch := decide) only [after_cons, after_nil,
      nullary_result', unary_result', binary_result', reshape_result', nary12_result,
      nullary_result_ne', unary_result_ne', binary_result_ne', reshape_result_ne', nary_result_ne']))

/-- What the result buffer holds after the line, from any contents. -/
theorem out_eq (V : Valuation τ sig (Elt F)) :
    after ops V (Proc.devRef .tc main_v38) = out (V (Proc.devRef .tc main_arg0)) (V (Proc.devRef .tc main_arg1)) := by
  after_results_line
  rfl

theorem arg0_eq (V : Valuation τ sig (Elt F)) : after ops V (Proc.devRef .tc main_arg0) = V (Proc.devRef .tc main_arg0) := by
  after_results_line
theorem arg1_eq (V : Valuation τ sig (Elt F)) : after ops V (Proc.devRef .tc main_arg1) = V (Proc.devRef .tc main_arg1) := by
  after_results_line

/-- On every device, from any memory with zero counters: every weakly fair execution of @main terminates with the result
    at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v38).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.Hand

end
-- ==== Proof.ReferenceValue.lean ====
/-
  The reference's result is the rate law of its arguments.

  Entry (r, j) of the contraction is the sum over the twelve channels of (scaled flux at (r, k)) · (table at (k, j)).
  The scaled flux at (r, k) is the k-th rate constant — ten to the power of the k-th weight, laid as a row and repeated
  down the rows — times the k-th monomial of row r, which is read through the stack of twelve columns, each a vector over
  the rows made a one-column matrix, each such vector a column of the state or a product of two. The reference writes
  rate constant · monomial where the rate law is stated as monomial · rate constant: the product of extended reals commutes.
-/
import proofs.«116628_j34102040330828_2_alg».proof.Proof.ReferenceRun
import proofs.«116628_j34102040330828_2_alg».proof.Proof.RateLaw
import proofs.«116628_j34102040330828_2_alg».proof.Proof.LibColumns
import proofs.«116628_j34102040330828_2_alg».proof.Proof.LibMatmul2d
import Idealize.ShloMosaic.PureOps.Ideal.Laws

noncomputable section

namespace Cert.ReferenceIdeal.RefValue

open Cert.ReferenceIdeal Cert.ReferenceIdeal.Gen Idealize.ShloMosaic Idealize.ShloMosaic.ValueIdx Cert.RateLaw
open scoped BigOperators

/-- The rate constants: ten to the power of each weight. -/
def rateConst (w : FVec Ideal S12 .f32) : FVec Ideal S12 .f32 :=
  Host.powf (broadcastInDim S12 ![] bcast_S_S12 (constant (F := Ideal) S_ .f32 0x41200000#32)) w

/-- The coefficient table: the literal 5 × 12 matrix, transposed. -/
def coeff : FVec Ideal S12x5 .f32 :=
  transpose S12x5 [1, 0] (fun i => FloatOps.ofBits (F := Ideal) .f32 (lit0 (S5x12.rowMajor i))) transposes_S5x12_S12x5_1_0

/-- The host's contraction of an M × K with a K × N operand, at (i, j): the sum over the K products. -/
theorem hostDot_apply {M K N : ℕ} {φ₁ φ₂ : FTy} (a : FVec Ideal ⟨2, ![M, K]⟩ φ₁) (b : FVec Ideal ⟨2, ![K, N]⟩ φ₂)
    (i : Fin M) (j : Fin N) :
    Host.dotGeneral (DotDims.plain M K N) none a b (ix2 i j) = ∑ k : Fin K, a (ix2 i k) * b (ix2 k j) :=
  (Ideal.dotGeneral_apply (DotDims.plain M K N) none .single a b (ix2 i j)).trans
    ((Ideal.matmul_constant_zero_apply (DotDims.plain M K N) none a b (ix2 i j)).symm.trans
      (Cert.LibMatmul2d.matmul_plain_apply a b i j))

/-- The scaled flux: the reference multiplies the rate constant by the monomial. -/
theorem scaled_entry (A B : FVec Ideal S4194304x12 .f32) (i : S4194304x12.Idx) : (mulf A B i : EReal) = B i * A i :=
  mul_comm (A i) (B i)

/-- Entry (r, j) of the reference's result is the rate law's entry (r, j). -/
theorem out_apply (x : FVec Ideal S4194304x5 .f32) (w : FVec Ideal S12 .f32) (r : Fin 4194304) (j : Fin 5) :
    Hand.out (F := Ideal) x w (ix2 r j) = rateAt x (rateConst w) coeff r j := by
  -- the five columns of the state, at row r
  have z0 := Cert.LibColumns.column_apply 0 x slices_S4194304x5_S4194304x1_0_0 shapeCasts_S4194304x1_S4194304 r (0 : Fin 5) rfl
  have z1 := Cert.LibColumns.column_apply 1 x slices_S4194304x5_S4194304x1_0_1 shapeCasts_S4194304x1_S4194304 r (1 : Fin 5) rfl
  have z2 := Cert.LibColumns.column_apply 2 x slices_S4194304x5_S4194304x1_0_2 shapeCasts_S4194304x1_S4194304 r (2 : Fin 5) rfl
  have z3 := Cert.LibColumns.column_apply 3 x slices_S4194304x5_S4194304x1_0_3 shapeCasts_S4194304x1_S4194304 r (3 : Fin 5) rfl
  have z4 := Cert.LibColumns.column_apply 4 x slices_S4194304x5_S4194304x1_0_4 shapeCasts_S4194304x1_S4194304 r (4 : Fin 5) rfl
  -- a monomial of degree one, and one of degree two, made a one-column matrix, at row r
  have one : ∀ (a : FVec Ideal S4194304 .f32) (A : EReal), a (ix1 r) = A →
      broadcastInDim S4194304x1 ![0] bcast_S4194304_S4194304x1_0 a (ix2 r (0 : Fin 1)) = A :=
    fun a A h => (Cert.LibColumns.broadcastInDim_a_a1_apply a _ r 0).trans h
  have two : ∀ (a b : FVec Ideal S4194304 .f32) (A B : EReal), a (ix1 r) = A → b (ix1 r) = B →
      broadcastInDim S4194304x1 ![0] bcast_S4194304_S4194304x1_0 (mulf a b) (ix2 r (0 : Fin 1)) = A * B :=
    fun a b A B ha hb => (Cert.LibColumns.broadcastInDim_a_a1_apply (mulf a b) _ r 0).trans
      (congrArg₂ (fun u v : EReal => u * v) ha hb)
  unfold Hand.out
  refine (hostDot_apply _ _ r j).trans ?_
  unfold rateAt
  refine Finset.sum_congr rfl fun k _ => ?_
  refine congrArg₂ (fun u v : EReal => u * v) ((scaled_entry _ _ _).trans (congrArg₂ (fun u v : EReal => u * v) ?_ ?_)) rfl
  · -- the k-th of the twelve columns, at row r, is the k-th monomial of that row
    refine (Cert.LibColumns.stack12_apply _ _ _ _ _ _ _ _ _ _ _ _ _ r k).trans ?_
    unfold monomial
    exact Cert.LibColumns.vec12_map (β := S4194304x1.Idx → EReal) (γ := EReal) (fun q => q (ix2 r (0 : Fin 1)))
      _ _ _ _ _ _ _ _ _ _ _ _ _ _ _ _ _ _ _ _ _ _ _ _
      (two _ _ _ _ z0 z0) (one _ _ z1) (two _ _ _ _ z0 z3) (one _ _ z2) (two _ _ _ _ z3 z3) (one _ _ z4)
      (two _ _ _ _ z1 z4) (two _ _ _ _ z2 z2) (two _ _ _ _ z1 z3) (two _ _ _ _ z2 z0) (two _ _ _ _ z4 z0)
      (two _ _ _ _ z2 z3) k
  · -- the rate constants, one row repeated down the rows
    exact Cert.LibColumns.perColumnHost_apply _ _ _ r k

/-- The reference's result array is the rate law of its arguments. -/
theorem out_eq (x : FVec Ideal S4194304x5 .f32) (w : FVec Ideal S12 .f32) :
    Hand.out (F := Ideal) x w = rate x (rateConst w) coeff := by
  funext y
  obtain ⟨r, j, rfl⟩ : ∃ (r : Fin 4194304) (j : Fin 5), y = ix2 r j := ⟨y 0, y 1, eq_ix2 y⟩
  exact out_apply x w r j

end Cert.ReferenceIdeal.RefValue

end
-- ==== Proof.lean ====
/-
  The kernel and its reference compute one rate law.

  Both programs take an array of 4194304 state rows (z₀, …, z₄) and twelve weights. Both form, for every row, the twelve
  monomials z₀², z₁, z₀z₃, z₂, z₃², z₄, z₁z₄, z₂², z₁z₃, z₂z₀, z₄z₀, z₂z₃, scale monomial k by ten to the power of
  the k-th weight, and contract the twelve fluxes against the transpose of one 5 × 12 table of coefficients. The kernel
  does it 4096 rows at a time on a grid of 1024 points, with the rate constants and the table computed on the host
  before the grid and its two factors rounded to sixteen bits on the way into the contraction; the reference does it
  in one pass over the whole array. Over the extended reals the rounding is the identity, a contraction into a zero
  accumulator and the host's contraction are the same finite sum, a row of the result depends on the same row of the
  state only, and the one difference left — monomial · rate constant in the kernel, rate constant · monomial in the
  reference — is the commutativity of the product. No finiteness of the inputs is used.

  The three frames: the kernel's two are the runs of its pipeline; the reference's is its run with the result dropped.
  The idealization rewrote no operation, so there is nothing to preserve.
-/
import proofs.«116628_j34102040330828_2_alg».proof.Defs
import proofs.«116628_j34102040330828_2_alg».proof.Proof.Gen.Kernel
import proofs.«116628_j34102040330828_2_alg».proof.Proof.Gen.Kernel.Frame
import proofs.«116628_j34102040330828_2_alg».proof.Proof.Gen.KernelIdeal
import proofs.«116628_j34102040330828_2_alg».proof.Proof.Gen.KernelIdeal.Frame
import proofs.«116628_j34102040330828_2_alg».proof.Proof.Gen.KernelIdeal.Value
import proofs.«116628_j34102040330828_2_alg».proof.Proof.Gen.ReferenceIdeal
import proofs.«116628_j34102040330828_2_alg».proof.Proof.Gen.Pre_finite_inputs
import proofs.«116628_j34102040330828_2_alg».proof.Proof.KernelArray
import proofs.«116628_j34102040330828_2_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Hand.run (F := Ideal) m ρ)

/-- Both programs raise ten to the weights by the same host operations … -/
theorem rateConst_eq (w : FVec Ideal Cert.KernelIdeal.S12 .f32) :
    Cert.KernelIdeal.Whole.rateConst w = Cert.ReferenceIdeal.RefValue.rateConst w := rfl

/-- … and transpose the same literal table. -/
theorem coeff_eq : Cert.KernelIdeal.Whole.coeff = Cert.ReferenceIdeal.RefValue.coeff := rfl

/-- From memories that agree on the two arguments, both runs end with the result at the rate law of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Hand.run (F := Ideal) m' ρ')
  rw [Cert.ReferenceIdeal.RefValue.out_eq, (hagree c).1, (hagree c).2, rateConst_eq, coeff_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
